-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v406)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v406) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v408) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S10000 : Shape := ⟨1, ![10000]⟩
abbrev S11 : Shape := ⟨1, ![11]⟩
abbrev S512x128 : Shape := ⟨2, ![512, 128]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S11 : S_.BroadcastsInDim S11 (![] : Fin 0 → Fin S11.rank)
  reducesTo_S11_S_d0 : S11.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S10000 .f32) (main_arg3 : FVec F S11 .f32) (main_arg4 : FVec F S512x128 .f32) (main_arg5 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S10000 .f32 := Host.absf main_arg2
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S11 .f32 := Host.absf main_arg3
  let main_cst_2 : FVec F S_ .f32 := constant S_ .f32 0x7F800000#32
  let main_v10 : FVec F S11 .f32 := broadcastInDim S11 ![] bcast_S_S11 main_cst_2
  let main_v11 : IVec S11 1 := cmpf .olt main_v9 main_v10
  let main_c_3 : IVec S_ 1 := constantI S_ 1 1#1
  let main_v12 : IVec S_ 1 := (fun x v => Host.reduce IntOp.andi x v reducesTo_S11_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S10000 : Shape := ⟨1, ![10000]⟩
abbrev S11 : Shape := ⟨1, ![11]⟩
abbrev S512x128 : Shape := ⟨2, ![512, 128]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S1 : Shape := ⟨1, ![1]⟩
abbrev S50000x1 : Shape := ⟨2, ![50000, 1]⟩
abbrev S800000x128 : Shape := ⟨2, ![800000, 128]⟩
abbrev S10000x128 : Shape := ⟨2, ![10000, 128]⟩
abbrev S10000x1 : Shape := ⟨2, ![10000, 1]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S128x512 : Shape := ⟨2, ![128, 512]⟩

abbrev nBuf : Space → Nat
  | .hbm => 498
  | .vmem => 6
  | .smem => 0
  | _ => 0

abbrev hbmTy0_0 (i : Nat) : BufTy := match i % 128 with
  | 0 => ⟨S50000x128, .f32⟩
  | 1 => ⟨S2x800000, .i32⟩
  | 2 => ⟨S10000, .f32⟩
  | 3 => ⟨S11, .f32⟩
  | 4 => ⟨S512x128, .f32⟩
  | 5 => ⟨S512, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S10000, .f32⟩
  | 14 => ⟨S800000x1, .i32⟩
  | 15 => ⟨S10000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .f32⟩
  | 41 => ⟨S10000, .f32⟩
  | 42 => ⟨S10000, .i1⟩
  | 43 => ⟨S_, .f32⟩
  | 44 => ⟨S10000, .f32⟩
  | 45 => ⟨S10000, .f32⟩
  | 46 => ⟨S_, .f32⟩
  | 47 => ⟨S10000, .f32⟩
  | 48 => ⟨S10000, .f32⟩
  | 49 => ⟨S_, .f32⟩
  | 50 => ⟨S_, .f32⟩
  | 51 => ⟨S10000, .f32⟩
  | 52 => ⟨S10000, .f32⟩
  | 53 => ⟨S10000, .f32⟩
  | 54 => ⟨S1, .f32⟩
  | 55 => ⟨S_, .f32⟩
  | 56 => ⟨S50000x128, .f32⟩
  | 57 => ⟨S50000x128, .f32⟩
  | 58 => ⟨S50000x1, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S10000x128, .f32⟩
  | 72 => ⟨S800000x1, .i32⟩
  | 73 => ⟨S10000x128, .f32⟩
  | 74 => ⟨S10000x1, .f32⟩
  | 75 => ⟨S10000x128, .f32⟩
  | 76 => ⟨S10000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x1, .f32⟩
  | 91 => ⟨S50000x128, .f32⟩
  | 92 => ⟨S50000x128, .f32⟩
  | 93 => ⟨S50000x128, .f32⟩
  | 94 => ⟨S1, .f32⟩
  | 95 => ⟨S_, .f32⟩
  | 96 => ⟨S50000x128, .f32⟩
  | 97 => ⟨S50000x128, .f32⟩
  | 98 => ⟨S50000x128, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S10000x128, .f32⟩
  | 113 => ⟨S800000x1, .i32⟩
  | 114 => ⟨S10000x128, .f32⟩
  | 115 => ⟨S10000x1, .f32⟩
  | 116 => ⟨S10000x128, .f32⟩
  | 117 => ⟨S10000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x1, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1, .f32⟩
  | 11 => ⟨S_, .f32⟩
  | 12 => ⟨S50000x128, .f32⟩
  | 13 => ⟨S50000x128, .f32⟩
  | 14 => ⟨S50000x128, .f32⟩
  | 15 => ⟨S50000x1, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S10000x128, .f32⟩
  | 29 => ⟨S800000x1, .i32⟩
  | 30 => ⟨S10000x128, .f32⟩
  | 31 => ⟨S10000x1, .f32⟩
  | 32 => ⟨S10000x128, .f32⟩
  | 33 => ⟨S10000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x1, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1, .f32⟩
  | 55 => ⟨S_, .f32⟩
  | 56 => ⟨S50000x128, .f32⟩
  | 57 => ⟨S50000x128, .f32⟩
  | 58 => ⟨S50000x128, .f32⟩
  | 59 => ⟨S50000x1, .f32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S10000x128, .f32⟩
  | 73 => ⟨S800000x1, .i32⟩
  | 74 => ⟨S10000x128, .f32⟩
  | 75 => ⟨S10000x1, .f32⟩
  | 76 => ⟨S10000x128, .f32⟩
  | 77 => ⟨S10000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x1, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S1, .f32⟩
  | 99 => ⟨S_, .f32⟩
  | 100 => ⟨S50000x128, .f32⟩
  | 101 => ⟨S50000x128, .f32⟩
  | 102 => ⟨S50000x128, .f32⟩
  | 103 => ⟨S50000x1, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S10000x128, .f32⟩
  | 117 => ⟨S800000x1, .i32⟩
  | 118 => ⟨S10000x128, .f32⟩
  | 119 => ⟨S10000x1, .f32⟩
  | 120 => ⟨S10000x128, .f32⟩
  | 121 => ⟨S10000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_2 (i : Nat) : BufTy := match i % 128 with
  | 0 => ⟨S800000, .i32⟩
  | 1 => ⟨S800000x1, .i32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x1, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S1, .f32⟩
  | 15 => ⟨S_, .f32⟩
  | 16 => ⟨S50000x128, .f32⟩
  | 17 => ⟨S50000x128, .f32⟩
  | 18 => ⟨S50000x128, .f32⟩
  | 19 => ⟨S50000x1, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S10000x128, .f32⟩
  | 33 => ⟨S800000x1, .i32⟩
  | 34 => ⟨S10000x128, .f32⟩
  | 35 => ⟨S10000x1, .f32⟩
  | 36 => ⟨S10000x128, .f32⟩
  | 37 => ⟨S10000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S1, .f32⟩
  | 59 => ⟨S_, .f32⟩
  | 60 => ⟨S50000x128, .f32⟩
  | 61 => ⟨S50000x128, .f32⟩
  | 62 => ⟨S50000x128, .f32⟩
  | 63 => ⟨S50000x1, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S10000x128, .f32⟩
  | 77 => ⟨S800000x1, .i32⟩
  | 78 => ⟨S10000x128, .f32⟩
  | 79 => ⟨S10000x1, .f32⟩
  | 80 => ⟨S10000x128, .f32⟩
  | 81 => ⟨S10000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S50000x1, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1, .f32⟩
  | 103 => ⟨S_, .f32⟩
  | 104 => ⟨S50000x128, .f32⟩
  | 105 => ⟨S50000x128, .f32⟩
  | 106 => ⟨S50000x128, .f32⟩
  | 107 => ⟨S50000x1, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S10000x128, .f32⟩
  | 121 => ⟨S800000x1, .i32⟩
  | 122 => ⟨S10000x128, .f32⟩
  | 123 => ⟨S10000x1, .f32⟩
  | 124 => ⟨S10000x128, .f32⟩
  | 125 => ⟨S10000x128, .f32⟩
  | 126 => ⟨S_, .i32⟩
  | 127 => ⟨S800000, .i32⟩
  | _ => ⟨S50000x128, .f32⟩

abbrev hbmTy0_3 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x1, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S1, .f32⟩
  | 19 => ⟨S_, .f32⟩
  | 20 => ⟨S50000x128, .f32⟩
  | 21 => ⟨S50000x128, .f32⟩
  | 22 => ⟨S50000x128, .f32⟩
  | 23 => ⟨S50000x1, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S10000x128, .f32⟩
  | 37 => ⟨S800000x1, .i32⟩
  | 38 => ⟨S10000x128, .f32⟩
  | 39 => ⟨S10000x1, .f32⟩
  | 40 => ⟨S10000x128, .f32⟩
  | 41 => ⟨S10000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x1, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S1, .f32⟩
  | 63 => ⟨S_, .f32⟩
  | 64 => ⟨S50000x128, .f32⟩
  | 65 => ⟨S50000x128, .f32⟩
  | 66 => ⟨S50000x128, .f32⟩
  | 67 => ⟨S50000x1, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S10000x128, .f32⟩
  | 81 => ⟨S800000x1, .i32⟩
  | 82 => ⟨S10000x128, .f32⟩
  | 83 => ⟨S10000x1, .f32⟩
  | 84 => ⟨S10000x128, .f32⟩
  | 85 => ⟨S10000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x1, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1, .f32⟩
  | 107 => ⟨S_, .f32⟩
  | 108 => ⟨S50000x128, .f32⟩
  | 109 => ⟨S50000x128, .f32⟩
  | 110 => ⟨S50000x128, .f32⟩
  | 111 => ⟨S512x128, .bf16⟩
  | 112 => ⟨S1x512, .f32⟩
  | 113 => ⟨S50000x512, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S512x128, .bf16⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_23 : Ref sig .tc := ⟨.hbm, 146, rfl⟩
abbrev main_v111 : Ref sig .tc := ⟨.hbm, 147, rfl⟩
abbrev main_v112 : Ref sig .tc := ⟨.hbm, 148, rfl⟩
abbrev main_c_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_25 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_26 : Ref sig .tc := ⟨.hbm, 162, rfl⟩
abbrev main_v124 : Ref sig .tc := ⟨.hbm, 163, rfl⟩
abbrev main_v125 : Ref sig .tc := ⟨.hbm, 164, rfl⟩
abbrev main_c_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_28 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_29 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_30 : Ref sig .tc := ⟨.hbm, 190, rfl⟩
abbrev main_v148 : Ref sig .tc := ⟨.hbm, 191, rfl⟩
abbrev main_v149 : Ref sig .tc := ⟨.hbm, 192, rfl⟩
abbrev main_c_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_32 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_c_33 : Ref sig .tc := ⟨.hbm, 206, rfl⟩
abbrev main_v161 : Ref sig .tc := ⟨.hbm, 207, rfl⟩
abbrev main_v162 : Ref sig .tc := ⟨.hbm, 208, rfl⟩
abbrev main_c_34 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_35 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_36 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_c_37 : Ref sig .tc := ⟨.hbm, 234, rfl⟩
abbrev main_v185 : Ref sig .tc := ⟨.hbm, 235, rfl⟩
abbrev main_v186 : Ref sig .tc := ⟨.hbm, 236, rfl⟩
abbrev main_c_38 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_39 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_c_40 : Ref sig .tc := ⟨.hbm, 250, rfl⟩
abbrev main_v198 : Ref sig .tc := ⟨.hbm, 251, rfl⟩
abbrev main_v199 : Ref sig .tc := ⟨.hbm, 252, rfl⟩
abbrev main_c_41 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_42 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_43 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_c_44 : Ref sig .tc := ⟨.hbm, 278, rfl⟩
abbrev main_v222 : Ref sig .tc := ⟨.hbm, 279, rfl⟩
abbrev main_v223 : Ref sig .tc := ⟨.hbm, 280, rfl⟩
abbrev main_c_45 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_46 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_c_47 : Ref sig .tc := ⟨.hbm, 294, rfl⟩
abbrev main_v235 : Ref sig .tc := ⟨.hbm, 295, rfl⟩
abbrev main_v236 : Ref sig .tc := ⟨.hbm, 296, rfl⟩
abbrev main_c_48 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_cst_49 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_cst_50 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_c_51 : Ref sig .tc := ⟨.hbm, 322, rfl⟩
abbrev main_v259 : Ref sig .tc := ⟨.hbm, 323, rfl⟩
abbrev main_v260 : Ref sig .tc := ⟨.hbm, 324, rfl⟩
abbrev main_c_52 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_cst_53 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_c_54 : Ref sig .tc := ⟨.hbm, 338, rfl⟩
abbrev main_v272 : Ref sig .tc := ⟨.hbm, 339, rfl⟩
abbrev main_v273 : Ref sig .tc := ⟨.hbm, 340, rfl⟩
abbrev main_c_55 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_cst_56 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_cst_57 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_c_58 : Ref sig .tc := ⟨.hbm, 366, rfl⟩
abbrev main_v296 : Ref sig .tc := ⟨.hbm, 367, rfl⟩
abbrev main_v297 : Ref sig .tc := ⟨.hbm, 368, rfl⟩
abbrev main_c_59 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_cst_60 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_c_61 : Ref sig .tc := ⟨.hbm, 382, rfl⟩
abbrev main_v309 : Ref sig .tc := ⟨.hbm, 383, rfl⟩
abbrev main_v310 : Ref sig .tc := ⟨.hbm, 384, rfl⟩
abbrev main_c_62 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_cst_63 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_cst_64 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_c_65 : Ref sig .tc := ⟨.hbm, 410, rfl⟩
abbrev main_v333 : Ref sig .tc := ⟨.hbm, 411, rfl⟩
abbrev main_v334 : Ref sig .tc := ⟨.hbm, 412, rfl⟩
abbrev main_c_66 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_cst_67 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_c_68 : Ref sig .tc := ⟨.hbm, 426, rfl⟩
abbrev main_v346 : Ref sig .tc := ⟨.hbm, 427, rfl⟩
abbrev main_v347 : Ref sig .tc := ⟨.hbm, 428, rfl⟩
abbrev main_c_69 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_cst_70 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_cst_71 : Ref sig .tc := ⟨.hbm, 442, rfl⟩
abbrev main_v359 : Ref sig .tc := ⟨.hbm, 443, rfl⟩
abbrev main_v360 : Ref sig .tc := ⟨.hbm, 444, rfl⟩
abbrev main_v361 : Ref sig .tc := ⟨.hbm, 445, rfl⟩
abbrev main_v362 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_c_72 : Ref sig .tc := ⟨.hbm, 454, rfl⟩
abbrev main_v370 : Ref sig .tc := ⟨.hbm, 455, rfl⟩
abbrev main_v371 : Ref sig .tc := ⟨.hbm, 456, rfl⟩
abbrev main_c_73 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_cst_74 : Ref sig .tc := ⟨.hbm, 463, rfl⟩
abbrev main_v377 : Ref sig .tc := ⟨.hbm, 464, rfl⟩
abbrev main_v378 : Ref sig .tc := ⟨.hbm, 465, rfl⟩
abbrev main_v379 : Ref sig .tc := ⟨.hbm, 466, rfl⟩
abbrev main_v380 : Ref sig .tc := ⟨.hbm, 467, rfl⟩
abbrev main_v381 : Ref sig .tc := ⟨.hbm, 468, rfl⟩
abbrev main_v382 : Ref sig .tc := ⟨.hbm, 469, rfl⟩
abbrev main_c_75 : Ref sig .tc := ⟨.hbm, 470, rfl⟩
abbrev main_v383 : Ref sig .tc := ⟨.hbm, 471, rfl⟩
abbrev main_v384 : Ref sig .tc := ⟨.hbm, 472, rfl⟩
abbrev main_c_76 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_cst_77 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_cst_78 : Ref sig .tc := ⟨.hbm, 486, rfl⟩
abbrev main_v396 : Ref sig .tc := ⟨.hbm, 487, rfl⟩
abbrev main_v397 : Ref sig .tc := ⟨.hbm, 488, rfl⟩
abbrev main_v398 : Ref sig .tc := ⟨.hbm, 489, rfl⟩
abbrev main_v399 : Ref sig .tc := ⟨.hbm, 490, rfl⟩
abbrev main_v400 : Ref sig .tc := ⟨.hbm, 491, rfl⟩
abbrev main_v401 : Ref sig .tc := ⟨.hbm, 492, rfl⟩
abbrev main_v402 : Ref sig .tc := ⟨.hbm, 493, rfl⟩
abbrev main_v403 : Ref sig .tc := ⟨.hbm, 494, rfl⟩
abbrev main_v404 : Ref sig .tc := ⟨.hbm, 495, rfl⟩
abbrev main_v405 : Ref sig .tc := ⟨.hbm, 496, rfl⟩
abbrev main_v406 : Ref sig .tc := ⟨.hbm, 497, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S10000 : S_.BroadcastsInDim S10000 (![] : Fin 0 → Fin S10000.rank)
  bcast_S800000_S800000x1_0 : S800000.BroadcastsInDim S800000x1 (![0] : Fin 1 → Fin S800000x1.rank)
  bcast_S_S50000 : S_.BroadcastsInDim S50000 (![] : Fin 0 → Fin S50000.rank)
  slices_S11_S1_0 : S11.Slices ![0] S1
  shapeCasts_S1_S_ : S1.ShapeCasts S_
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S11_S1_1 : S11.Slices ![1] S1
  slices_S11_S1_2 : S11.Slices ![2] S1
  slices_S11_S1_3 : S11.Slices ![3] S1
  slices_S11_S1_4 : S11.Slices ![4] S1
  slices_S11_S1_5 : S11.Slices ![5] S1
  slices_S11_S1_6 : S11.Slices ![6] S1
  slices_S11_S1_7 : S11.Slices ![7] S1
  slices_S11_S1_8 : S11.Slices ![8] S1
  slices_S11_S1_9 : S11.Slices ![9] S1
  slices_S11_S1_10 : S11.Slices ![10] S1
  bitsLt_bf16_f32 : FTy.bits .bf16 < FTy.bits .f32
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S10000_S800000x1_S800000_n_0_0_1_wf : ScatterDims.WF S10000 S800000x1 S800000 [] [0] [0] 1
  gather_S10000_S800000x1_S800000_n_0_n_n_0_1_1_wf : GatherDims.WF S10000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S10000x128_S800000x1_S800000x128_1_0_0_1_wf : ScatterDims.WF S10000x128 S800000x1 S800000x128 [1] [0] [0] 1
  gather_S10000x128_S800000x1_S800000x128_1_0_n_n_0_1_1128_wf : GatherDims.WF S10000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)

variable [Facts₀]

def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S10000_S800000x1_S800000_n_0_n_n_0_1_1 : GatherDims S10000 S800000x1 S800000 where
  offsetDims := []
  collapsedSliceDims := [0]
  operandBatchingDims := []
  startIndicesBatchingDims := []
  startIndexMap := [0]
  indexVectorDim := 1
  sliceSizes := ![1]
  wf := gather_S10000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v403) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v404) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v405) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v406) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S10000 : Shape := ⟨1, ![10000]⟩
abbrev S11 : Shape := ⟨1, ![11]⟩
abbrev S512x128 : Shape := ⟨2, ![512, 128]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S1 : Shape := ⟨1, ![1]⟩
abbrev S50000x1 : Shape := ⟨2, ![50000, 1]⟩
abbrev S800000x128 : Shape := ⟨2, ![800000, 128]⟩
abbrev S10000x128 : Shape := ⟨2, ![10000, 128]⟩
abbrev S10000x1 : Shape := ⟨2, ![10000, 1]⟩
abbrev S50000x512 : Shape := ⟨2, ![50000, 512]⟩
abbrev S1x512 : Shape := ⟨2, ![1, 512]⟩

abbrev nBuf : Space → Nat
  | .hbm => 502
  | .vmem => 0
  | .smem => 0
  | _ => 0

abbrev hbmTy0_0 (i : Nat) : BufTy := match i % 128 with
  | 0 => ⟨S50000x128, .f32⟩
  | 1 => ⟨S2x800000, .i32⟩
  | 2 => ⟨S10000, .f32⟩
  | 3 => ⟨S11, .f32⟩
  | 4 => ⟨S512x128, .f32⟩
  | 5 => ⟨S512, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S10000, .f32⟩
  | 14 => ⟨S800000x1, .i32⟩
  | 15 => ⟨S10000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .f32⟩
  | 41 => ⟨S10000, .f32⟩
  | 42 => ⟨S10000, .i1⟩
  | 43 => ⟨S_, .f32⟩
  | 44 => ⟨S10000, .f32⟩
  | 45 => ⟨S10000, .f32⟩
  | 46 => ⟨S_, .f32⟩
  | 47 => ⟨S10000, .f32⟩
  | 48 => ⟨S10000, .f32⟩
  | 49 => ⟨S_, .f32⟩
  | 50 => ⟨S_, .f32⟩
  | 51 => ⟨S10000, .f32⟩
  | 52 => ⟨S10000, .f32⟩
  | 53 => ⟨S10000, .f32⟩
  | 54 => ⟨S1, .f32⟩
  | 55 => ⟨S_, .f32⟩
  | 56 => ⟨S50000x128, .f32⟩
  | 57 => ⟨S50000x128, .f32⟩
  | 58 => ⟨S50000x1, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S10000x128, .f32⟩
  | 72 => ⟨S800000x1, .i32⟩
  | 73 => ⟨S10000x128, .f32⟩
  | 74 => ⟨S10000x1, .f32⟩
  | 75 => ⟨S10000x128, .f32⟩
  | 76 => ⟨S10000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x1, .f32⟩
  | 91 => ⟨S50000x128, .f32⟩
  | 92 => ⟨S50000x128, .f32⟩
  | 93 => ⟨S50000x128, .f32⟩
  | 94 => ⟨S1, .f32⟩
  | 95 => ⟨S_, .f32⟩
  | 96 => ⟨S50000x128, .f32⟩
  | 97 => ⟨S50000x128, .f32⟩
  | 98 => ⟨S50000x128, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S10000x128, .f32⟩
  | 113 => ⟨S800000x1, .i32⟩
  | 114 => ⟨S10000x128, .f32⟩
  | 115 => ⟨S10000x1, .f32⟩
  | 116 => ⟨S10000x128, .f32⟩
  | 117 => ⟨S10000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x1, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1, .f32⟩
  | 11 => ⟨S_, .f32⟩
  | 12 => ⟨S50000x128, .f32⟩
  | 13 => ⟨S50000x128, .f32⟩
  | 14 => ⟨S50000x128, .f32⟩
  | 15 => ⟨S50000x1, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S10000x128, .f32⟩
  | 29 => ⟨S800000x1, .i32⟩
  | 30 => ⟨S10000x128, .f32⟩
  | 31 => ⟨S10000x1, .f32⟩
  | 32 => ⟨S10000x128, .f32⟩
  | 33 => ⟨S10000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x1, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1, .f32⟩
  | 55 => ⟨S_, .f32⟩
  | 56 => ⟨S50000x128, .f32⟩
  | 57 => ⟨S50000x128, .f32⟩
  | 58 => ⟨S50000x128, .f32⟩
  | 59 => ⟨S50000x1, .f32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S10000x128, .f32⟩
  | 73 => ⟨S800000x1, .i32⟩
  | 74 => ⟨S10000x128, .f32⟩
  | 75 => ⟨S10000x1, .f32⟩
  | 76 => ⟨S10000x128, .f32⟩
  | 77 => ⟨S10000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x1, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S1, .f32⟩
  | 99 => ⟨S_, .f32⟩
  | 100 => ⟨S50000x128, .f32⟩
  | 101 => ⟨S50000x128, .f32⟩
  | 102 => ⟨S50000x128, .f32⟩
  | 103 => ⟨S50000x1, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S10000x128, .f32⟩
  | 117 => ⟨S800000x1, .i32⟩
  | 118 => ⟨S10000x128, .f32⟩
  | 119 => ⟨S10000x1, .f32⟩
  | 120 => ⟨S10000x128, .f32⟩
  | 121 => ⟨S10000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_2 (i : Nat) : BufTy := match i % 128 with
  | 0 => ⟨S800000, .i32⟩
  | 1 => ⟨S800000x1, .i32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x1, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S1, .f32⟩
  | 15 => ⟨S_, .f32⟩
  | 16 => ⟨S50000x128, .f32⟩
  | 17 => ⟨S50000x128, .f32⟩
  | 18 => ⟨S50000x128, .f32⟩
  | 19 => ⟨S50000x1, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S10000x128, .f32⟩
  | 33 => ⟨S800000x1, .i32⟩
  | 34 => ⟨S10000x128, .f32⟩
  | 35 => ⟨S10000x1, .f32⟩
  | 36 => ⟨S10000x128, .f32⟩
  | 37 => ⟨S10000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S1, .f32⟩
  | 59 => ⟨S_, .f32⟩
  | 60 => ⟨S50000x128, .f32⟩
  | 61 => ⟨S50000x128, .f32⟩
  | 62 => ⟨S50000x128, .f32⟩
  | 63 => ⟨S50000x1, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S10000x128, .f32⟩
  | 77 => ⟨S800000x1, .i32⟩
  | 78 => ⟨S10000x128, .f32⟩
  | 79 => ⟨S10000x1, .f32⟩
  | 80 => ⟨S10000x128, .f32⟩
  | 81 => ⟨S10000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S50000x1, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1, .f32⟩
  | 103 => ⟨S_, .f32⟩
  | 104 => ⟨S50000x128, .f32⟩
  | 105 => ⟨S50000x128, .f32⟩
  | 106 => ⟨S50000x128, .f32⟩
  | 107 => ⟨S50000x1, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S10000x128, .f32⟩
  | 121 => ⟨S800000x1, .i32⟩
  | 122 => ⟨S10000x128, .f32⟩
  | 123 => ⟨S10000x1, .f32⟩
  | 124 => ⟨S10000x128, .f32⟩
  | 125 => ⟨S10000x128, .f32⟩
  | 126 => ⟨S_, .i32⟩
  | 127 => ⟨S800000, .i32⟩
  | _ => ⟨S50000x128, .f32⟩

abbrev hbmTy0_3 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x1, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S1, .f32⟩
  | 19 => ⟨S_, .f32⟩
  | 20 => ⟨S50000x128, .f32⟩
  | 21 => ⟨S50000x128, .f32⟩
  | 22 => ⟨S50000x128, .f32⟩
  | 23 => ⟨S50000x1, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S10000x128, .f32⟩
  | 37 => ⟨S800000x1, .i32⟩
  | 38 => ⟨S10000x128, .f32⟩
  | 39 => ⟨S10000x1, .f32⟩
  | 40 => ⟨S10000x128, .f32⟩
  | 41 => ⟨S10000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x1, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S1, .f32⟩
  | 63 => ⟨S_, .f32⟩
  | 64 => ⟨S50000x128, .f32⟩
  | 65 => ⟨S50000x128, .f32⟩
  | 66 => ⟨S50000x128, .f32⟩
  | 67 => ⟨S50000x1, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S10000x128, .f32⟩
  | 81 => ⟨S800000x1, .i32⟩
  | 82 => ⟨S10000x128, .f32⟩
  | 83 => ⟨S10000x1, .f32⟩
  | 84 => ⟨S10000x128, .f32⟩
  | 85 => ⟨S10000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x1, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1, .f32⟩
  | 107 => ⟨S_, .f32⟩
  | 108 => ⟨S50000x128, .f32⟩
  | 109 => ⟨S50000x128, .f32⟩
  | 110 => ⟨S50000x128, .f32⟩
  | 111 => ⟨S50000x512, .f32⟩
  | 112 => ⟨S1x512, .f32⟩
  | 113 => ⟨S50000x512, .f32⟩
  | 114 => ⟨S50000x512, .f32⟩
  | 115 => ⟨S_, .f32⟩
  | 116 => ⟨S50000x512, .f32⟩
  | 117 => ⟨S50000x512, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_23 : Ref sig .tc := ⟨.hbm, 146, rfl⟩
abbrev main_v111 : Ref sig .tc := ⟨.hbm, 147, rfl⟩
abbrev main_v112 : Ref sig .tc := ⟨.hbm, 148, rfl⟩
abbrev main_c_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_25 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_26 : Ref sig .tc := ⟨.hbm, 162, rfl⟩
abbrev main_v124 : Ref sig .tc := ⟨.hbm, 163, rfl⟩
abbrev main_v125 : Ref sig .tc := ⟨.hbm, 164, rfl⟩
abbrev main_c_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_28 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_29 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_30 : Ref sig .tc := ⟨.hbm, 190, rfl⟩
abbrev main_v148 : Ref sig .tc := ⟨.hbm, 191, rfl⟩
abbrev main_v149 : Ref sig .tc := ⟨.hbm, 192, rfl⟩
abbrev main_c_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_32 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_c_33 : Ref sig .tc := ⟨.hbm, 206, rfl⟩
abbrev main_v161 : Ref sig .tc := ⟨.hbm, 207, rfl⟩
abbrev main_v162 : Ref sig .tc := ⟨.hbm, 208, rfl⟩
abbrev main_c_34 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_35 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_36 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_c_37 : Ref sig .tc := ⟨.hbm, 234, rfl⟩
abbrev main_v185 : Ref sig .tc := ⟨.hbm, 235, rfl⟩
abbrev main_v186 : Ref sig .tc := ⟨.hbm, 236, rfl⟩
abbrev main_c_38 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_39 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_c_40 : Ref sig .tc := ⟨.hbm, 250, rfl⟩
abbrev main_v198 : Ref sig .tc := ⟨.hbm, 251, rfl⟩
abbrev main_v199 : Ref sig .tc := ⟨.hbm, 252, rfl⟩
abbrev main_c_41 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_42 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_43 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_c_44 : Ref sig .tc := ⟨.hbm, 278, rfl⟩
abbrev main_v222 : Ref sig .tc := ⟨.hbm, 279, rfl⟩
abbrev main_v223 : Ref sig .tc := ⟨.hbm, 280, rfl⟩
abbrev main_c_45 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_46 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_c_47 : Ref sig .tc := ⟨.hbm, 294, rfl⟩
abbrev main_v235 : Ref sig .tc := ⟨.hbm, 295, rfl⟩
abbrev main_v236 : Ref sig .tc := ⟨.hbm, 296, rfl⟩
abbrev main_c_48 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_cst_49 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_cst_50 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_c_51 : Ref sig .tc := ⟨.hbm, 322, rfl⟩
abbrev main_v259 : Ref sig .tc := ⟨.hbm, 323, rfl⟩
abbrev main_v260 : Ref sig .tc := ⟨.hbm, 324, rfl⟩
abbrev main_c_52 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_cst_53 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_c_54 : Ref sig .tc := ⟨.hbm, 338, rfl⟩
abbrev main_v272 : Ref sig .tc := ⟨.hbm, 339, rfl⟩
abbrev main_v273 : Ref sig .tc := ⟨.hbm, 340, rfl⟩
abbrev main_c_55 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_cst_56 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_cst_57 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_c_58 : Ref sig .tc := ⟨.hbm, 366, rfl⟩
abbrev main_v296 : Ref sig .tc := ⟨.hbm, 367, rfl⟩
abbrev main_v297 : Ref sig .tc := ⟨.hbm, 368, rfl⟩
abbrev main_c_59 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_cst_60 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_c_61 : Ref sig .tc := ⟨.hbm, 382, rfl⟩
abbrev main_v309 : Ref sig .tc := ⟨.hbm, 383, rfl⟩
abbrev main_v310 : Ref sig .tc := ⟨.hbm, 384, rfl⟩
abbrev main_c_62 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_cst_63 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_cst_64 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_c_65 : Ref sig .tc := ⟨.hbm, 410, rfl⟩
abbrev main_v333 : Ref sig .tc := ⟨.hbm, 411, rfl⟩
abbrev main_v334 : Ref sig .tc := ⟨.hbm, 412, rfl⟩
abbrev main_c_66 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_cst_67 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_c_68 : Ref sig .tc := ⟨.hbm, 426, rfl⟩
abbrev main_v346 : Ref sig .tc := ⟨.hbm, 427, rfl⟩
abbrev main_v347 : Ref sig .tc := ⟨.hbm, 428, rfl⟩
abbrev main_c_69 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_cst_70 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_cst_71 : Ref sig .tc := ⟨.hbm, 442, rfl⟩
abbrev main_v359 : Ref sig .tc := ⟨.hbm, 443, rfl⟩
abbrev main_v360 : Ref sig .tc := ⟨.hbm, 444, rfl⟩
abbrev main_v361 : Ref sig .tc := ⟨.hbm, 445, rfl⟩
abbrev main_v362 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_c_72 : Ref sig .tc := ⟨.hbm, 454, rfl⟩
abbrev main_v370 : Ref sig .tc := ⟨.hbm, 455, rfl⟩
abbrev main_v371 : Ref sig .tc := ⟨.hbm, 456, rfl⟩
abbrev main_c_73 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_cst_74 : Ref sig .tc := ⟨.hbm, 463, rfl⟩
abbrev main_v377 : Ref sig .tc := ⟨.hbm, 464, rfl⟩
abbrev main_v378 : Ref sig .tc := ⟨.hbm, 465, rfl⟩
abbrev main_v379 : Ref sig .tc := ⟨.hbm, 466, rfl⟩
abbrev main_v380 : Ref sig .tc := ⟨.hbm, 467, rfl⟩
abbrev main_v381 : Ref sig .tc := ⟨.hbm, 468, rfl⟩
abbrev main_v382 : Ref sig .tc := ⟨.hbm, 469, rfl⟩
abbrev main_c_75 : Ref sig .tc := ⟨.hbm, 470, rfl⟩
abbrev main_v383 : Ref sig .tc := ⟨.hbm, 471, rfl⟩
abbrev main_v384 : Ref sig .tc := ⟨.hbm, 472, rfl⟩
abbrev main_c_76 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_cst_77 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_cst_78 : Ref sig .tc := ⟨.hbm, 486, rfl⟩
abbrev main_v396 : Ref sig .tc := ⟨.hbm, 487, rfl⟩
abbrev main_v397 : Ref sig .tc := ⟨.hbm, 488, rfl⟩
abbrev main_v398 : Ref sig .tc := ⟨.hbm, 489, rfl⟩
abbrev main_v399 : Ref sig .tc := ⟨.hbm, 490, rfl⟩
abbrev main_v400 : Ref sig .tc := ⟨.hbm, 491, rfl⟩
abbrev main_v401 : Ref sig .tc := ⟨.hbm, 492, rfl⟩
abbrev main_v402 : Ref sig .tc := ⟨.hbm, 493, rfl⟩
abbrev main_v403 : Ref sig .tc := ⟨.hbm, 494, rfl⟩
abbrev main_v404 : Ref sig .tc := ⟨.hbm, 495, rfl⟩
abbrev main_v405 : Ref sig .tc := ⟨.hbm, 496, rfl⟩
abbrev main_v406 : Ref sig .tc := ⟨.hbm, 497, rfl⟩
abbrev main_v407 : Ref sig .tc := ⟨.hbm, 498, rfl⟩
abbrev main_call2_cst : Ref sig .tc := ⟨.hbm, 499, rfl⟩
abbrev main_call2_v0 : Ref sig .tc := ⟨.hbm, 500, rfl⟩
abbrev main_v408 : Ref sig .tc := ⟨.hbm, 501, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S10000 : S_.BroadcastsInDim S10000 (![] : Fin 0 → Fin S10000.rank)
  bcast_S800000_S800000x1_0 : S800000.BroadcastsInDim S800000x1 (![0] : Fin 1 → Fin S800000x1.rank)
  bcast_S_S50000 : S_.BroadcastsInDim S50000 (![] : Fin 0 → Fin S50000.rank)
  slices_S11_S1_0 : S11.Slices ![0] S1
  shapeCasts_S1_S_ : S1.ShapeCasts S_
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S11_S1_1 : S11.Slices ![1] S1
  slices_S11_S1_2 : S11.Slices ![2] S1
  slices_S11_S1_3 : S11.Slices ![3] S1
  slices_S11_S1_4 : S11.Slices ![4] S1
  slices_S11_S1_5 : S11.Slices ![5] S1
  slices_S11_S1_6 : S11.Slices ![6] S1
  slices_S11_S1_7 : S11.Slices ![7] S1
  slices_S11_S1_8 : S11.Slices ![8] S1
  slices_S11_S1_9 : S11.Slices ![9] S1
  slices_S11_S1_10 : S11.Slices ![10] S1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  scatter_S10000_S800000x1_S800000_n_0_0_1_wf : ScatterDims.WF S10000 S800000x1 S800000 [] [0] [0] 1
  gather_S10000_S800000x1_S800000_n_0_n_n_0_1_1_wf : GatherDims.WF S10000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S10000x128_S800000x1_S800000x128_1_0_0_1_wf : ScatterDims.WF S10000x128 S800000x1 S800000x128 [1] [0] [0] 1
  gather_S10000x128_S800000x1_S800000x128_1_0_n_n_0_1_1128_wf : GatherDims.WF S10000x128 S800000x1 S800000x128 [1] [0] [] [0] [] 1 ![1, 128]
  scatter_S50000x128_S800000x1_S800000x128_1_0_0_1_wf : ScatterDims.WF S50000x128 S800000x1 S800000x128 [1] [0] [0] 1
  dot_S50000x128_S512x128_S50000x512_1_1_0_0_n_n_wf : DotDims.WF S50000x128 S512x128 S50000x512 [1] [1] [0] [0] [] []

variable [Facts₀]

def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S10000_S800000x1_S800000_n_0_n_n_0_1_1 : GatherDims S10000 S800000x1 S800000 where
  offsetDims := []
  collapsedSliceDims := [0]
  operandBatchingDims := []
  startIndicesBatchingDims := []
  startIndexMap := [0]
  indexVectorDim := 1
  sliceSizes := ![1]
  wf := gather_S10000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S512x128_S50000x512_1_1_0_0_n_n : DotDims S50000x128 S512x128 S50000x512 where
  lhsContracting := [1]
  rhsContracting := [1]
  lhsNonContracting := [0]
  rhsNonContracting := [0]
  lhsBatch := []
  rhsBatch := []
  wf := dot_S50000x128_S512x128_S50000x512_1_1_0_0_n_n_wf

class Facts : Prop extends Facts₀ where

variable [Facts]
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«112026_j69724499083636_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibBiasRow.lean ====
/-
  A bias vector spread over the rows of a matrix, read at an entry.

  A `[b]` vector is turned into an `[a, b]` matrix by two `broadcast_in_dim`s: first to one row `[1, b]` (the vector's
  axis becomes the column axis), then that row to all `a` rows. Read at the entry `(r, q)`, the second broadcast reads
  the one row at `(0, q)` (the row axis of its operand is a unit axis) and the first reads the vector at `q`. The same
  vector RESHAPED to one row, read at `(0, q)`, is also the vector at `q`. So the matrix's entry `(r, q)` is the
  reshaped row's entry `(0, q)`: every row of the matrix is that one row. Nothing here depends on the element type or on
  the extents, and the side conditions of the three operations may be any proofs.
-/
import Idealize.ShloMosaic.Lib.Pipeline.Value
import Idealize.ShloMosaic.Lib.ValueIdx
import Idealize.ShloMosaic.Lib.ValueLayout

namespace Cert.BiasRow

open Idealize.ShloMosaic Idealize.ShloMosaic.ValueIdx

/-- A `[b]` vector broadcast to one row `[1, b]` reads, at `(u, q)`, the vector at `q`. -/
theorem row_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) := by
  refine broadcastInDim_apply _ h1 v (ix2 u q) (ix1 q) fun ax => ?_
  match ax with
  | ⟨0, _⟩ =>
    show q.val = if b = 1 then 0 else q.val
    split
    · have := q.isLt; omega
    · rfl

/-- A `[1, b]` row broadcast over `a` rows reads, at `(r, q)`, the row at `(0, q)`. -/
theorem rows_apply {α : Type} {a b : ℕ} (w : (⟨2, ![1, b]⟩ : Shape).Idx → α)
    (h2 : (⟨2, ![1, b]⟩ : Shape).BroadcastsInDim ⟨2, ![a, b]⟩ ![0, 1]) (r : Fin a) (q : Fin b) :
    broadcastInDim ⟨2, ![a, b]⟩ ![0, 1] h2 w (ix2 r q) = w (ix2 (0 : Fin 1) q) := by
  refine broadcastInDim_apply _ h2 w (ix2 r q) (ix2 (0 : Fin 1) q) fun ax => ?_
  match ax with
  | ⟨0, _⟩ => rfl
  | ⟨1, _⟩ =>
    show q.val = if b = 1 then 0 else q.val
    split
    · have := q.isLt; omega
    · rfl

/-- THE BIAS OVER THE ROWS: the vector broadcast to one row and then over `a` rows, read at any entry, is the vector
    reshaped to one row read at that entry's column: both are the vector at the column. -/
theorem row_over_rows_eq_cast {α : Type} {a b : ℕ} (v : (⟨1, ![b]⟩ : Shape).Idx → α)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) :
    broadcastInDim ⟨2, ![a, b]⟩ ![0, 1] h2 (broadcastInDim ⟨2, ![1, b]⟩ ![1] h1 v) i
      = shapeCast ⟨2, ![1, b]⟩ v hc (ix2 (0 : Fin 1) (i 1)) := by
  obtain ⟨r, q, rfl⟩ : ∃ (r : Fin a) (q : Fin b), i = ix2 r q := ⟨i 0, i 1, eq_ix2 i⟩
  show _ = shapeCast ⟨2, ![1, b]⟩ v hc (ix2 (0 : Fin 1) q)
  rw [rows_apply, row_apply, shapeCast_a_1a_apply]

end Cert.BiasRow
-- ==== Proof.LibRowBias.lean ====
/-
  A bias row added to every row of a matrix, with or without a clamp at zero from below, over the extended reals.

  `addRow x r` adds to each entry `(p, q)` of an `[a, b]` matrix the entry `(0, q)` of a one-row array `[1, b]`;
  `reluAddRow x r` then takes the maximum with zero (the float whose word is `0x00000000`, kept unevaluated). A host
  program that spreads a `[b]` vector over the rows of the matrix by two `broadcast_in_dim`s (`[b] → [1, b]` on the column
  axis, then `[1, b] → [a, b]`) and adds it — and, for the clamp, takes the maximum with a zero constant broadcast from a
  scalar — computes exactly these functions of the vector RESHAPED to one row: at `(p, q)` both read the vector at `q`.
  So a kernel that is handed the bias as a `[1, b]` row and a host line that broadcasts the `[b]` vector meet in `addRow` /
  `reluAddRow`. Any extents, any proofs of the operations' side conditions; nothing here needs finiteness.
-/
import proofs.«112026_j69724499083636_1_alg».proof.Proof.LibBiasRow
import Idealize.ShloMosaic.PureOps.Ideal
import Idealize.ShloMosaic.Lib.Pipeline.Value
import Idealize.ShloMosaic.Lib.ValueIdx
import Idealize.ShloMosaic.Lib.ValueLayout

noncomputable section

namespace Cert.RowBias

open Idealize.ShloMosaic Idealize.ShloMosaic.ValueIdx

/-- Entry `(p, q)` of the matrix plus entry `(0, q)` of the row. -/
def addRow {a b : ℕ} (x : (⟨2, ![a, b]⟩ : Shape).Idx → EReal) (r : (⟨2, ![1, b]⟩ : Shape).Idx → EReal) :
    (⟨2, ![a, b]⟩ : Shape).Idx → EReal :=
  fun i => x i + r (ix2 (0 : Fin 1) (i 1))

/-- The same, then the maximum with zero (the word `0x00000000` read as a float). -/
def reluAddRow {a b : ℕ} (x : (⟨2, ![a, b]⟩ : Shape).Idx → EReal) (r : (⟨2, ![1, b]⟩ : Shape).Idx → EReal) :
    (⟨2, ![a, b]⟩ : Shape).Idx → EReal :=
  fun i => max (x i + r (ix2 (0 : Fin 1) (i 1))) (Ideal.ofBits .f32 0x00000000#32)

/-- A scalar broadcast to a matrix reads the scalar at every entry. -/
theorem scalar_over_matrix_apply {α : Type} {a b : ℕ} (z : (⟨0, ![]⟩ : Shape).Idx → α)
    (h0 : (⟨0, ![]⟩ : Shape).BroadcastsInDim ⟨2, ![a, b]⟩ ![]) (i : (⟨2, ![a, b]⟩ : Shape).Idx) :
    broadcastInDim ⟨2, ![a, b]⟩ ![] h0 z i = z ix0 :=
  broadcastInDim_apply _ h0 z i ix0 fun ax => ax.elim0

/-- THE HOST'S BIAS ADD: the matrix plus the vector spread over its rows by two `broadcast_in_dim`s is `addRow` of the
    matrix and the vector reshaped to one row. -/
theorem host_addRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    addf x (broadcastInDim ⟨2, ![a, b]⟩ ![0, 1] h2 (broadcastInDim ⟨2, ![1, b]⟩ ![1] h1 v))
      = addRow x (shapeCast ⟨2, ![1, b]⟩ v hc) := by
  funext i
  show x i + broadcastInDim ⟨2, ![a, b]⟩ ![0, 1] h2 (broadcastInDim ⟨2, ![1, b]⟩ ![1] h1 v) i
    = x i + shapeCast ⟨2, ![1, b]⟩ v hc (ix2 (0 : Fin 1) (i 1))
  rw [Cert.BiasRow.row_over_rows_eq_cast v hc h1 h2 i]

/-- THE HOST'S BIAS ADD AND CLAMP: the maximum of that sum with a broadcast zero constant is `reluAddRow`. -/
theorem host_reluAddRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    maximumf (addf x (broadcastInDim ⟨2, ![a, b]⟩ ![0, 1] h2 (broadcastInDim ⟨2, ![1, b]⟩ ![1] h1 v)))
        (broadcastInDim ⟨2, ![a, b]⟩ ![] h0 (constant (F := Ideal) ⟨0, ![]⟩ .f32 0x00000000#32))
      = reluAddRow x (shapeCast ⟨2, ![1, b]⟩ v hc) := by
  funext i
  show max (x i + broadcastInDim ⟨2, ![a, b]⟩ ![0, 1] h2 (broadcastInDim ⟨2, ![1, b]⟩ ![1] h1 v) i)
      (broadcastInDim ⟨2, ![a, b]⟩ ![] h0 (constant (F := Ideal) ⟨0, ![]⟩ .f32 0x00000000#32) i)
    = max (x i + shapeCast ⟨2, ![1, b]⟩ v hc (ix2 (0 : Fin 1) (i 1))) (Ideal.ofBits .f32 0x00000000#32)
  rw [Cert.BiasRow.row_over_rows_eq_cast v hc h1 h2 i, scalar_over_matrix_apply]
  rfl

end Cert.RowBias

end
-- ==== Proof.LibDenseLayer.lean ====
/-
  A dense layer with a bias row and a clamp at zero, over the extended reals.

  For a matrix `x` of shape `[M, K]`, a weight matrix `w` of shape `[N, K]` and a one-row array `r` of shape `[1, N]`,
  `layer x w r` is the `[M, N]` array whose entry `(n, j)` is

      max (Σ_k x (n, k) · w (j, k) + r (0, j)) 0,

  the zero being the float whose word is `0x00000000`, kept unevaluated. `timesT x w` is the product `x · wᵀ` alone. Both are
  plain functions of their arguments, index by index; nothing here needs finiteness, because the two programs that are to
  be compared compute the same sum of the same products in the same order and add the same bias to it.
-/
import proofs.«112026_j69724499083636_1_alg».proof.Proof.LibRowBias
import Idealize.ShloMosaic.PureOps.Ideal
import Idealize.ShloMosaic.Lib.ValueIdx

noncomputable section

namespace Cert.DenseLayer

open Idealize.ShloMosaic Idealize.ShloMosaic.ValueIdx

/-- `x · wᵀ`: entry `(n, j)` is the sum over `k` of `x (n, k) · w (j, k)`. -/
def timesT {M K N : ℕ} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

theorem timesT_apply {M K N : ℕ} (x : (⟨2, ![M, K]⟩ : Shape).Idx → EReal) (w : (⟨2, ![N, K]⟩ : Shape).Idx → EReal)
    (n : Fin M) (j : Fin N) : timesT x w (ix2 n j) = ∑ k : Fin K, x (ix2 n k) * w (ix2 j k) := rfl

/-- The layer: the product `x · wᵀ`, the bias row added to every row, the maximum with zero. -/
def layer {M K N : ℕ} (x : (⟨2, ![M, K]⟩ : Shape).Idx → EReal) (w : (⟨2, ![N, K]⟩ : Shape).Idx → EReal)
    (r : (⟨2, ![1, N]⟩ : Shape).Idx → EReal) : (⟨2, ![M, N]⟩ : Shape).Idx → EReal :=
  Cert.RowBias.reluAddRow (timesT x w) r

/-- Entry `(n, j)` of the layer. -/
theorem layer_apply {M K N : ℕ} (x : (⟨2, ![M, K]⟩ : Shape).Idx → EReal) (w : (⟨2, ![N, K]⟩ : Shape).Idx → EReal)
    (r : (⟨2, ![1, N]⟩ : Shape).Idx → EReal) (n : Fin M) (j : Fin N) :
    layer x w r (ix2 n j)
      = max ((∑ k : Fin K, x (ix2 n k) * w (ix2 j k)) + r (ix2 (0 : Fin 1) j)) (Ideal.ofBits .f32 0x00000000#32) := rfl

/-- A BAND OF ROWS. If `x0` holds the rows `off, off + 1, …` of `x`, and `w0`, `r0` are `w`, `r`, then at an index `j` of the
    band the layer of `x0`, `w0`, `r0` is the layer of `x`, `w`, `r` at the index `i` whose row is `off` plus `j`'s row and whose
    column is `j`'s: an entry of the layer depends on its own row of `x` only, and on all of `w` and `r`. -/
theorem layer_band {M K N B : ℕ} (x : (⟨2, ![M, K]⟩ : Shape).Idx → EReal) (w : (⟨2, ![N, K]⟩ : Shape).Idx → EReal)
    (r : (⟨2, ![1, N]⟩ : Shape).Idx → EReal) (x0 : (⟨2, ![B, K]⟩ : Shape).Idx → EReal)
    (w0 : (⟨2, ![N, K]⟩ : Shape).Idx → EReal) (r0 : (⟨2, ![1, N]⟩ : Shape).Idx → EReal) (off : ℕ)
    (hx : ∀ (p : Fin B) (k : Fin K) (hp : off + p.val < M), x0 (ix2 p k) = x (ix2 ⟨off + p.val, hp⟩ k))
    (hw : w0 = w) (hr : r0 = r)
    (j : (⟨2, ![B, N]⟩ : Shape).Idx) (i : (⟨2, ![M, N]⟩ : Shape).Idx)
    (h0 : (i 0).val = off + (j 0).val) (h1 : (i 1).val = (j 1).val) :
    layer x0 w0 r0 j = layer x w r i := by
  subst hw hr
  have hrow : off + (j 0).val < M := h0 ▸ (i 0).isLt
  have hi0 : i 0 = ⟨off + (j 0).val, hrow⟩ := Fin.ext h0
  have hi1 : i 1 = j 1 := Fin.ext h1
  show max ((∑ k : Fin K, x0 (ix2 (j 0) k) * w0 (ix2 (j 1) k)) + r0 (ix2 (0 : Fin 1) (j 1))) (Ideal.ofBits .f32 0x00000000#32)
    = max ((∑ k : Fin K, x (ix2 (i 0) k) * w0 (ix2 (i 1) k)) + r0 (ix2 (0 : Fin 1) (i 1))) (Ideal.ofBits .f32 0x00000000#32)
  rw [hi0, hi1]
  refine congrArg (fun s => max (s + r0 (ix2 (0 : Fin 1) (j 1))) (Ideal.ofBits .f32 0x00000000#32)) ?_
  exact Finset.sum_congr rfl fun k _ => congrArg (fun s => s * w0 (ix2 (j 1) k)) (hx (j 0) k hrow)

end Cert.DenseLayer

end
-- ==== Proof.Tile.lean ====
/-
  What one grid point of the kernel stores, read at an index.

  The body loads a tile `x0` of 2000 rows of the activations `[2000, 128]`, the whole weight matrix `x1` `[512, 128]` and
  the bias as one row `x2` `[1, 512]`; it narrows the activations' format (the identity on the extended reals), transposes
  the weights to `[128, 512]`, multiplies into a zero accumulator, adds the bias row broadcast over the 2000 rows and takes
  the maximum with zero. At `(p, q)` the product reads row `p` of the tile against COLUMN `q` of the transposed weights,
  that is row `q` of the weights as loaded; so the stored tile is the dense layer of `DenseLayer.layer` of the three
  loaded blocks.
-/
import proofs.«112026_j69724499083636_1_alg».proof.Proof.Gen.KernelIdeal.Skeleton
import proofs.«112026_j69724499083636_1_alg».proof.Proof.LibRowsTimes
import proofs.«112026_j69724499083636_1_alg».proof.Proof.LibDenseLayer
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- The stored tile at `(p, q)`: the sum over `k` of `x0 (p, k) · x1 (q, k)`, plus the bias row at `q`, clamped at zero. -/
theorem stored_apply (x0 : Vec Ideal S2000x128 .f32) (x1 : Vec Ideal S512x128 .bf16) (x2 : Vec Ideal S1x512 .f32)
    (p : Fin 2000) (q : Fin 512) :
    k0_pay1 (F := Ideal) x0 x1 x2 (ix2 p q)
      = max ((∑ k : Fin 128, x0 (ix2 p k) * x1 (ix2 q k)) + x2 (ix2 (0 : Fin 1) q)) (Ideal.ofBits .f32 0x00000000#32) := by
  show max (FloatOps.matmul (F := Ideal) dot_S2000x128_S128x512_S2000x512_1_0_0_1_n_n none
          (truncf (F := Ideal) .bf16 (shapeCast S2000x128 x0 shapeCasts_S2000x128_S2000x128) bitsLt_bf16_f32)
          (transpose S128x512 [1, 0] (shapeCast S512x128 x1 shapeCasts_S512x128_S512x128) transposes_S512x128_p1_0_S128x512)
          (constant (F := Ideal) S2000x512 .f32 0x00000000#32) (ix2 p q)
        + broadcastTo S2000x512 (shapeCast S1x512 x2 shapeCasts_S1x512_S1x512) broadcasts_S1x512_S2000x512 (ix2 p q))
      (Ideal.ofBits .f32 0x00000000#32) = _
  rw [Idealize.ShloMosaic.RowsTimes.matmul_zero_apply dot_S2000x128_S128x512_S2000x512_1_0_0_1_n_n rfl rfl rfl rfl rfl rfl rfl rfl,
    broadcastTo_1b_ab_apply, shapeCast_self, shapeCast_self, shapeCast_self]
  refine congrArg (fun s => max (s + x2 (ix2 (0 : Fin 1) q)) (Ideal.ofBits .f32 0x00000000#32)) ?_
  refine Finset.sum_congr rfl fun k _ => ?_
  rw [transpose_ix2_apply]
  rfl

/-- The stored tile IS the dense layer of the three loaded blocks. -/
theorem stored_eq (x0 : Vec Ideal S2000x128 .f32) (x1 : Vec Ideal S512x128 .bf16) (x2 : Vec Ideal S1x512 .f32) :
    k0_pay1 (F := Ideal) x0 x1 x2 = Cert.DenseLayer.layer x0 x1 x2 := by
  funext j
  obtain ⟨p, q, rfl⟩ : ∃ (p : Fin 2000) (q : Fin 512), j = ix2 p q := ⟨j 0, j 1, eq_ix2 j⟩
  rw [stored_apply, Cert.DenseLayer.layer_apply]

end Cert.KernelIdeal.Tile

end
-- ==== Proof.Whole.lean ====
/-
  From the grid's tiles to the whole result array.

  The grid has 25 points; point `t` is handed rows `2000 t … 2000 t + 1999` of the feature matrix, the whole weight matrix
  and the whole bias row, and writes back rows `2000 t … 2000 t + 1999` of the result. What it writes is the dense layer of
  its three blocks (`Tile.stored_eq`), and a band of rows of the dense layer is the dense layer of that band of rows
  (`DenseLayer.layer_band`); so point `t` writes block `t` of the dense layer of the WHOLE arrays. The 25 blocks cover all
  50000 rows (row `n` lies in block `n / 2000`), so the result array after the run is the dense layer of the three arrays as
  the region finds them.
-/
import proofs.«112026_j69724499083636_1_alg».proof.Proof.Gen.KernelIdeal.Value
import proofs.«112026_j69724499083636_1_alg».proof.Proof.Tile
import proofs.«112026_j69724499083636_1_alg».proof.Proof.LibDenseLayer

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The dense layer of the three arrays as the region finds them: the features, the narrowed weights, the bias row. -/
abbrev whole (c : Dev nD) : S50000x512.Idx → EReal :=
  Cert.DenseLayer.layer (V m c main_v403 : S50000x128.Idx → EReal) (V m c main_v404 : S512x128.Idx → EReal)
    (V m c main_v405 : S1x512.Idx → EReal)

/-- The printed index maps over the 25 points: the features' and the result's blocks move down one block of rows per point,
    the weights' and the bias's stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the features holds rows `2000 t + p` of the feature matrix. -/
theorem features_block (c : Dev nD) (t : Fin cfg0.N) (p : Fin 2000) (k : Fin 128) (hp : t.val * 2000 + p.val < 50000) :
    (iblk m c 0 t : S2000x128.Idx → EReal) (ix2 p k)
      = (V m c main_v403 : S50000x128.Idx → EReal) (ix2 ⟨t.val * 2000 + p.val, hp⟩ k) := by
  obtain ⟨e00, e01, -⟩ := index_maps t
  show (V m c main_v403 : S50000x128.Idx → EReal) (((cfg0.win 0).blk t).view.emb (ix2 p k)) = _
  refine congrArg (V m c main_v403 : S50000x128.Idx → EReal) ?_
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- Every point's block of the weights is the whole weight matrix. -/
theorem weights_block (c : Dev nD) (t : Fin cfg0.N) :
    (iblk m c 1 t : S512x128.Idx → EReal) = (V m c main_v404 : S512x128.Idx → EReal) := by
  obtain ⟨-, -, e10, e11, -⟩ := index_maps t
  funext y
  show (V m c main_v404 : S512x128.Idx → EReal) (((cfg0.win 1).blk t).view.emb y) = _
  refine congrArg (V m c main_v404 : S512x128.Idx → EReal) ?_
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- Every point's block of the bias is the whole bias row. -/
theorem bias_block (c : Dev nD) (t : Fin cfg0.N) :
    (iblk m c 2 t : S1x512.Idx → EReal) = (V m c main_v405 : S1x512.Idx → EReal) := by
  obtain ⟨-, -, -, -, e20, e21, -⟩ := index_maps t
  funext y
  show (V m c main_v405 : S1x512.Idx → EReal) (((cfg0.win 2).blk t).view.emb y) = _
  refine congrArg (V m c main_v405 : S1x512.Idx → EReal) ?_
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- WHAT POINT `t` WRITES BACK is block `t` of the dense layer of the whole arrays. -/
theorem flushed_eq (c : Dev nD) (t : Fin cfg0.N) :
    (dats m 0 c).flushed 3 t = ((cfg0.win 3).blk t).view.read (Elt Ideal) (whole m c) := by
  rw [Cert.KernelIdeal.Value.flushed3]
  unfold out0_3
  rw [View.canon_unit_zero zeros]
  simp only [View.ld_unit_zero (S := S2000x128) zeros, View.ld_unit_zero (S := S512x128) zeros,
    View.ld_unit_zero (S := S1x512) zeros]
  rw [Cert.KernelIdeal.Tile.stored_eq]
  obtain ⟨-, -, -, -, -, -, e30, e31⟩ := index_maps t
  funext j
  show Cert.DenseLayer.layer (iblk m c 0 t : S2000x128.Idx → EReal) (iblk m c 1 t : S512x128.Idx → EReal)
      (iblk m c 2 t : S1x512.Idx → EReal) j = whole m c (((cfg0.win 3).blk t).view.emb j)
  refine Cert.DenseLayer.layer_band (V m c main_v403 : S50000x128.Idx → EReal) (V m c main_v404 : S512x128.Idx → EReal)
    (V m c main_v405 : S1x512.Idx → EReal) (iblk m c 0 t : S2000x128.Idx → EReal) (iblk m c 1 t : S512x128.Idx → EReal)
    (iblk m c 2 t : S1x512.Idx → EReal) (t.val * 2000) (fun p k hp => features_block m c t p k hp)
    (weights_block m c t) (bias_block m c t) j (((cfg0.win 3).blk t).view.emb j) ?_ ?_
  · show win0_3.index t (0 : Fin 2) * 2000 + 1 * (j 0).val = t.val * 2000 + (j 0).val; omega
  · show win0_3.index t (1 : Fin 2) * 512 + 1 * (j 1).val = (j 1).val; omega

/-- Every row of the result lies in some point's block: row `n` in block `n / 2000`. -/
theorem cover (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨-, -, -, -, -, -, e30, e31⟩ := index_maps t
  have ht : t.val = (i 0).val / 2000 := rfl
  refine ⟨t, flush0_3 t, ?_⟩
  show i ∈ ((View.whole main_v406).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 512 ≤ (i 1).val ∧ (i 1).val < win0_3.index t (1 : Fin 2) * 512 + 512
    omega

/-- THE RESULT ARRAY after the run is the dense layer of the three arrays as the region finds them. -/
theorem final (c : Dev nD) : (dats m 0 c).arrAt 3 cfg0.N = whole m c :=
  (dats m 0 c).arrAt_eq_of_cover 3 (whole m c) (fun t _ => flushed_eq m c t) (cover)

end Cert.KernelIdeal.Whole

end
-- ==== Proof.KernelLine.lean ====
/-
  The kernel's host line, and what it leaves in the region's second and third arrays.

  Before its region the kernel's @main runs a straight line of host operations. Its last two prepare the layer's parameters:
  the weight matrix with its float format narrowed — on the extended reals a change of format is the identity, so the array
  IS the weight matrix as launched — and the bias vector laid out as one row. Neither the weights nor the bias is written by
  any earlier operation of the line.
-/
import proofs.«112026_j69724499083636_1_alg».proof.Proof.Gen.KernelIdeal.Launch
import Idealize.ShloMosaic.Lib.StableHlo.Run
import Idealize.ShloMosaic.PureOps.Ideal

noncomputable section

namespace Cert.KernelIdeal.Line

open Cert.KernelIdeal Cert.KernelIdeal.Gen Idealize.ShloMosaic Idealize.ShloMosaic.TcCoe Idealize.ShloMosaic.StableHlo

/-- The host operations the kernel's @main runs before its region, in order. -/
abbrev kernelLine : List (HloOp τ sig (Elt Ideal)) :=
  List.flatten [hostOps0, hostOps0_1, hostOps0_2, hostOps0_3, hostOps0_4]

set_option maxRecDepth 8192 in
set_option maxHeartbeats 200000000 in
/-- The region's second array is the weight matrix as launched. -/
theorem weights_eq (W : Valuation τ sig (Elt Ideal)) :
    (after kernelLine W (Proc.devRef .tc main_v404) : S512x128.Idx → EReal) = W (Proc.devRef .tc main_arg4) := by
  simp only [kernelLine, hostOps0, hostOps0_1, hostOps0_2, hostOps0_3, hostOps0_4, List.flatten_cons, List.flatten_nil,
    List.append_nil, List.cons_append, List.nil_append]
  after_results_simp
  rfl

set_option maxRecDepth 8192 in
set_option maxHeartbeats 200000000 in
/-- The region's third array is the bias vector as launched, laid out as one row. -/
theorem bias_eq (W : Valuation τ sig (Elt Ideal)) :
    (after kernelLine W (Proc.devRef .tc main_v405) : S1x512.Idx → EReal)
      = shapeCast S1x512 (W (Proc.devRef .tc main_arg5) : S512.Idx → EReal) shapeCasts_S512_S1x512 := by
  simp only [kernelLine, hostOps0, hostOps0_1, hostOps0_2, hostOps0_3, hostOps0_4, List.flatten_cons, List.flatten_nil,
    List.append_nil, List.cons_append, List.nil_append]
  after_results_simp
  rfl

end Cert.KernelIdeal.Line

end
-- ==== Proof.SamePropagation.lean ====
/-
  The two programs propagate alike.

  Before its region the kernel's @main runs, operation for operation, the propagation the reference runs before its last
  lines: the slices of the incidence list, the two degree sums and their clamped inverse roots, the eleven Chebyshev terms
  (each a gather to the incidences, a scatter-add to the hyperedges, a scaling, a gather back and a scatter-add to the nodes)
  and their weighted sum. So, from contents that agree on the four arguments the propagation reads, the buffer the kernel's
  region stages as its first window and the reference's features buffer end equal: both folds are computed at that buffer and
  the two terms — the same operations of the same arguments in the same order — are compared as they stand.
-/
import proofs.«112026_j69724499083636_1_alg».proof.Proof.KernelLine
import proofs.«112026_j69724499083636_1_alg».proof.Proof.ReferenceOps
import Idealize.ShloMosaic.Lib.StableHlo.Run

noncomputable section

namespace Cert.SamePropagation

open Idealize.ShloMosaic Idealize.ShloMosaic.TcCoe Idealize.ShloMosaic.StableHlo
open Cert.KernelIdeal.Line (kernelLine)

set_option maxRecDepth 8192 in
set_option maxHeartbeats 400000000 in
/-- THE FEATURES AGREE: from contents agreeing on the node features, the incidence list, the hyperedge weights and the
    Chebyshev coefficients, the kernel's line and the reference's line leave the same feature matrix. -/
theorem features_eq (VK : Valuation Cert.KernelIdeal.τ Cert.KernelIdeal.sig (Elt Ideal))
    (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3)) :
    (after (Cert.ReferenceIdeal.RunP.ops (F := Ideal)) VR (Proc.devRef .tc Cert.ReferenceIdeal.main_v403)
        : Cert.KernelIdeal.S50000x128.Idx → EReal)
      = after kernelLine VK (Proc.devRef .tc Cert.KernelIdeal.main_v403) := by
  simp only [Cert.KernelIdeal.Line.kernelLine, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil,
    List.cons_append, List.nil_append]
  after_results_simp
  rw [h0, h1, h2, h3]
  rfl

end Cert.SamePropagation

end
-- ==== Proof.LibTransposedDot.lean ====
/-
  A matrix product whose right operand is contracted on its second axis, read at an index.

  For the dimension numbers of an `[M, K] × [N, K] → [M, N]` product — both operands contracted on their second axis, no
  batch axis, that is `x · wᵀ` — the contraction index has one coordinate, ranging over `Fin K`; at the result index
  `(r, c)` and contraction position `k` the left operand is read at `(r, k)` and the right at `(c, k)`. So a sum over the
  contraction index of any function of the two operand indices is the sum over `k : Fin K` of that function at `(r, k)`
  and `(c, k)`; in particular the host's `dot_general` with these dimension numbers, over the extended reals, is at
  `(r, c)` the sum over `k` of `x (r, k) · w (c, k)`. Nothing here uses finiteness: it is a re-indexing of one sum.
-/
import Idealize.ShloMosaic.PureOps.Dims
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at result index `(r, c)` and contraction position `k` is `(r, k)`, the right operand's
    `(c, k)`, for any record with these dimension numbers; the contraction position `k : Fin K` is carried to the contraction
    index by `contrEquiv1`. -/
theorem transposed_idx {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 c k := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])
    | ⟨1, _⟩ =>
      show (d.rhsIdx (ix2 r c) ((contrEquiv1 d K hr hs).symm k) 1).val = k.val
      rw [d.rhsIdx_val_of_single h2]
      exact contrEquiv1_symm_val d K hr hs k

/-- THE CONTRACTION SUM OF `x · wᵀ` at `(r, c)`: the sum over `k : Fin K` at the operand indices `(r, k)` and
    `(c, k)`, in any commutative additive monoid. -/
theorem transposed_sum {β : Type*} [AddCommMonoid β] {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K)
    (f : (⟨2, ![M, K]⟩ : Shape).Idx → (⟨2, ![N, K]⟩ : Shape).Idx → β) (r : Fin M) (c : Fin N) :
    ∑ q : d.contr.Idx, f (d.lhsIdx (ix2 r c) q) (d.rhsIdx (ix2 r c) q) = ∑ k : Fin K, f (ix2 r k) (ix2 c k) := by
  rw [← Equiv.sum_comp (contrEquiv1 d K hr hs).symm]
  refine Finset.sum_congr rfl fun k _ => ?_
  obtain ⟨hl, hr'⟩ := transposed_idx d h1 h2 h3 h4 h5 h6 hr hs r c k
  rw [hl, hr']

/-- The host's `dot_general` of `x · wᵀ` over the extended reals, at `(r, c)`: the sum over `k` of
    `x (r, k) · w (c, k)`. -/
theorem hostDot_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![N, K]⟩ φ₂) (r : Fin M) (c : Fin N) :
    Host.dotGeneral (F := Ideal) d prec x w (ix2 r c) = ∑ k : Fin K, x (ix2 r k) * w (ix2 c k) := by
  unfold Host.dotGeneral
  rw [Ideal.dotGeneral_apply]
  exact transposed_sum d h1 h2 h3 h4 h5 h6 hr hs (fun i j => x i * w j) r c

end Idealize.ShloMosaic.TransposedDot

end
-- ==== Proof.ReferenceLastLines.lean ====
/-
  The reference's last lines: a dense layer over the propagated features.

  The reference is a straight line of host operations; what a buffer holds after the line is the fold of the operations
  over the launch contents. Its result buffer is written by the last seven operations: a `dot_general` of the feature
  matrix `h` (`[50000, 128]`, the buffer the propagation leaves) with the weights `[512, 128]`, both contracted on their
  second axis (`h · wᵀ`); the bias `[512]` spread over the 50000 rows by two `broadcast_in_dim`s and added; and the maximum
  with a zero constant broadcast from a scalar. At `(n, j)` that is `max (Σ_k h (n, k) · w (j, k) + b (j)) 0`: the dense layer
  of `h`, the weights and the bias laid out as one row. The features' own term is carried along whole and never opened.
-/
import proofs.«112026_j69724499083636_1_alg».proof.Proof.ReferenceOps
import proofs.«112026_j69724499083636_1_alg».proof.Proof.LibTransposedDot
import proofs.«112026_j69724499083636_1_alg».proof.Proof.LibRowBias
import proofs.«112026_j69724499083636_1_alg».proof.Proof.LibDenseLayer

noncomputable section

namespace Cert.ReferenceIdeal.LastLines

open Cert.ReferenceIdeal Cert.ReferenceIdeal.Gen Cert.ReferenceIdeal.RunP Idealize.ShloMosaic Idealize.ShloMosaic.ValueIdx
open Idealize.ShloMosaic.StableHlo

/-- The bias vector may be laid out as one row. -/
theorem oneRow : S512.ShapeCasts S1x512 := by decide

/-- The host's `dot_general` with both operands contracted on their second axis is `x · wᵀ`. -/
theorem dot_eq (x : FVec Ideal S50000x128 .f32) (w : FVec Ideal S512x128 .f32) :
    Host.dotGeneral (F := Ideal) dot_S50000x128_S512x128_S50000x512_1_1_0_0_n_n none x w = Cert.DenseLayer.timesT x w := by
  funext i
  obtain ⟨n, j, rfl⟩ : ∃ (n : Fin 50000) (j : Fin 512), i = ix2 n j := ⟨i 0, i 1, eq_ix2 i⟩
  exact Idealize.ShloMosaic.TransposedDot.hostDot_apply dot_S50000x128_S512x128_S50000x512_1_1_0_0_n_n
    rfl rfl rfl rfl rfl rfl rfl rfl none x w n j

/-- The last lines as one function of the features, the weights and the bias: the dense layer. -/
theorem lastLines_eq (h : FVec Ideal S50000x128 .f32) (w : FVec Ideal S512x128 .f32) (b : FVec Ideal S512 .f32) :
    maximumf (addf (Host.dotGeneral (F := Ideal) dot_S50000x128_S512x128_S50000x512_1_1_0_0_n_n none h w)
        (broadcastInDim S50000x512 ![0, 1] bcast_S1x512_S50000x512_0_1 (broadcastInDim S1x512 ![1] bcast_S512_S1x512_1 b)))
      (broadcastInDim S50000x512 ![] bcast_S_S50000x512 (constant (F := Ideal) S_ .f32 0x00000000#32))
      = Cert.DenseLayer.layer h w (shapeCast S1x512 b oneRow) := by
  rw [dot_eq]
  exact Cert.RowBias.host_reluAddRow (Cert.DenseLayer.timesT h w) b oneRow
    bcast_S512_S1x512_1 bcast_S1x512_S50000x512_0_1 bcast_S_S50000x512

end Cert.ReferenceIdeal.LastLines

end
-- ==== Proof.ReferenceResult.lean ====
/-
  The reference's result buffer, read off the fold of its operations.

  After the reference's line of operations, from any contents `W` of the buffers, the result buffer holds the dense layer of
  what the features buffer holds, of the weights as launched and of the bias as launched, laid out as one row. The fold is
  computed at the result buffer and at the features buffer in one pass; the features' term, whatever it is, appears on both
  sides and is carried through the last lines (`LastLines.lastLines_eq`) unopened.
-/
import proofs.«112026_j69724499083636_1_alg».proof.Proof.ReferenceLastLines

noncomputable section

namespace Cert.ReferenceIdeal.Result

open Cert.ReferenceIdeal Cert.ReferenceIdeal.Gen Cert.ReferenceIdeal.RunP Idealize.ShloMosaic Idealize.ShloMosaic.TcCoe
open Idealize.ShloMosaic.StableHlo

set_option maxRecDepth 8192 in
set_option maxHeartbeats 200000000 in
/-- THE REFERENCE'S RESULT is the dense layer of its features buffer, the weights and the bias as one row. -/
theorem result_eq (W : Valuation τ sig (Elt Ideal)) :
    (after (ops (F := Ideal)) W (Proc.devRef .tc main_v408) : S50000x512.Idx → EReal)
      = Cert.DenseLayer.layer (after (ops (F := Ideal)) W (Proc.devRef .tc main_v403) : S50000x128.Idx → EReal)
          (W (Proc.devRef .tc main_arg4) : S512x128.Idx → EReal)
          (shapeCast S1x512 (W (Proc.devRef .tc main_arg5) : S512.Idx → EReal) Cert.ReferenceIdeal.LastLines.oneRow) := by
  after_results_simp
  exact Cert.ReferenceIdeal.LastLines.lastLines_eq _ _ _

end Cert.ReferenceIdeal.Result

end
-- ==== Proof.Meet.lean ====
/-
  Where the two programs' results meet.

  The kernel's result array is the dense layer of the three arrays its region finds (`Whole.final`); the reference's result
  buffer is the dense layer of its own features buffer, the weights and the bias as one row (`Result.result_eq`). From
  memories agreeing on the six arguments the features agree (`SamePropagation.features_eq`), the region's second array is the
  weight matrix and its third the bias as one row (`Line.weights_eq`, `Line.bias_eq`): the two dense layers are of equal
  arguments.
-/
import proofs.«112026_j69724499083636_1_alg».proof.Proof.Whole
import proofs.«112026_j69724499083636_1_alg».proof.Proof.KernelLine
import proofs.«112026_j69724499083636_1_alg».proof.Proof.SamePropagation
import proofs.«112026_j69724499083636_1_alg».proof.Proof.ReferenceResult

noncomputable section

namespace Cert.Meet

open Idealize.ShloMosaic Idealize.ShloMosaic.TcCoe Idealize.SL.Sem Idealize.ShloMosaic.StableHlo

/-- THE TWO RESULTS MEET: from memories agreeing on the six arguments, what the reference's line leaves in its result buffer
    is the dense layer of the three arrays the kernel's region finds — the features by `SamePropagation.features_eq`, the
    weights and the bias row by `Line.weights_eq` and `Line.bias_eq`. -/
theorem results_meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RunP.ops (F := Ideal)) (launchContents m' c) (Proc.devRef .tc Cert.ReferenceIdeal.main_v408)
      = Cert.KernelIdeal.Whole.whole m c := by
  have e3 := Cert.SamePropagation.features_eq (fun b => m (c, b)) (launchContents m' c) a0 a1 a2 a3
  have e4 := Cert.KernelIdeal.Line.weights_eq (fun b => m (c, b))
  have e5 := Cert.KernelIdeal.Line.bias_eq (fun b => m (c, b))
  refine (Cert.ReferenceIdeal.Result.result_eq (launchContents m' c)).trans ?_
  show Cert.DenseLayer.layer _ _ _
    = Cert.DenseLayer.layer
        (after Cert.KernelIdeal.Line.kernelLine (fun b => m (c, b)) (Proc.devRef .tc Cert.KernelIdeal.main_v403) : Cert.KernelIdeal.S50000x128.Idx → EReal)
        (after Cert.KernelIdeal.Line.kernelLine (fun b => m (c, b)) (Proc.devRef .tc Cert.KernelIdeal.main_v404) : Cert.KernelIdeal.S512x128.Idx → EReal)
        (after Cert.KernelIdeal.Line.kernelLine (fun b => m (c, b)) (Proc.devRef .tc Cert.KernelIdeal.main_v405) : Cert.KernelIdeal.S1x512.Idx → EReal)
  rw [e3, e4, e5]
  exact congrArg₂ (fun w b => Cert.DenseLayer.layer _ w (shapeCast Cert.KernelIdeal.S1x512 b Cert.KernelIdeal.Gen.shapeCasts_S512_S1x512)) a4 a5

end Cert.Meet

end
-- ==== Proof.lean ====
/-
  A hypergraph Chebyshev convolution followed by a dense layer: the kernel against its reference, over the extended reals.

  Both programs first propagate the node features over the hypergraph — the degree sums, their clamped inverse roots, eleven
  Chebyshev terms, their weighted sum `h` (`[50000, 128]`) — by the same host operations in the same order. The reference
  then computes `relu (h · wᵀ + b)` by a `dot_general`, two broadcasts of the bias, an add and a maximum with zero. The kernel
  narrows the weights' float format and lays the bias out as one row on the host, and computes the same layer in a region of
  25 grid points, each multiplying 2000 rows of `h` (narrowed) by the transposed weights on the matrix unit, adding the bias
  row and clamping at zero.

  On the extended reals a change of float format is the identity and the matrix unit's product into a zero accumulator is the
  plain sum of products, so each grid point stores the dense layer `max (Σ_k h (n, k) · w (j, k) + b (j)) 0` of its blocks
  (`Tile`), the 25 blocks tile the result (`Whole`), and the result array is the dense layer of the three arrays the region
  finds. The reference's last lines are the same function of its own features buffer (`ReferenceLastLines`,
  `ReferenceResult`), and the two features buffers agree because the two propagations are the same term of the same
  arguments (`SamePropagation`). No step uses finiteness: the two sides are the same sums of the same products.
  The ideal pass rewrote nothing, so the kernel's idealization is its own text and `preserves` is trivial.
-/
import proofs.«112026_j69724499083636_1_alg».proof.Defs
import proofs.«112026_j69724499083636_1_alg».proof.Proof.Gen.Kernel
import proofs.«112026_j69724499083636_1_alg».proof.Proof.Gen.Kernel.Skeleton
import proofs.«112026_j69724499083636_1_alg».proof.Proof.Gen.Kernel.Launch
import proofs.«112026_j69724499083636_1_alg».proof.Proof.Gen.Kernel.Points
import proofs.«112026_j69724499083636_1_alg».proof.Proof.Gen.Kernel.Frame
import proofs.«112026_j69724499083636_1_alg».proof.Proof.Gen.KernelIdeal
import proofs.«112026_j69724499083636_1_alg».proof.Proof.Gen.KernelIdeal.Skeleton
import proofs.«112026_j69724499083636_1_alg».proof.Proof.Gen.KernelIdeal.Launch
import proofs.«112026_j69724499083636_1_alg».proof.Proof.Gen.KernelIdeal.Points
import proofs.«112026_j69724499083636_1_alg».proof.Proof.Gen.KernelIdeal.Frame
import proofs.«112026_j69724499083636_1_alg».proof.Proof.Gen.ReferenceIdeal
import proofs.«112026_j69724499083636_1_alg».proof.Proof.Gen.Pre_finite_inputs
import proofs.«112026_j69724499083636_1_alg».proof.Proof.Gen.KernelIdeal.Value
import proofs.«112026_j69724499083636_1_alg».proof.Proof.Whole
import proofs.«112026_j69724499083636_1_alg».proof.Proof.KernelLine
import proofs.«112026_j69724499083636_1_alg».proof.Proof.SamePropagation
import proofs.«112026_j69724499083636_1_alg».proof.Proof.ReferenceRun
import proofs.«112026_j69724499083636_1_alg».proof.Proof.ReferenceResult
import proofs.«112026_j69724499083636_1_alg».proof.Proof.Meet
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- At the ideal instance the kernel's result array ends at the dense layer of the three arrays its region finds (the value
    leg's run and `Whole.final`), and the reference's result buffer at the same array (`Meet.results_meet`). -/
theorem algebraic : Cert.algebraic_KernelIdeal_ReferenceIdeal := by
  intro m ρ m' ρ' _ hagree
  refine ⟨fun c => Cert.KernelIdeal.Whole.whole m c, ?_, ?_⟩
  · exact (θ_run Cert.KernelIdeal.defs _ _).mono
      (fun r h c => ⟨(h c).1.trans (Cert.KernelIdeal.Whole.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5⟩ := hagree c
    exact Cert.Meet.results_meet m m' c a0 a1 a2 a3 a4 a5

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
